-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x64 : Shape := ⟨4, ![8, 8, 1024, 64]⟩
abbrev S8x8x1024x1024 : Shape := ⟨4, ![8, 8, 1024, 1024]⟩
abbrev S_ : Shape := ⟨0, ![]⟩

class Facts : Prop where
  bcast_S_S8x8x1024x64 : S_.BroadcastsInDim S8x8x1024x64 (![] : Fin 0 → Fin S8x8x1024x64.rank)
  reducesTo_S8x8x1024x64_S_d0_1_2_3 : S8x8x1024x64.ReducesTo [0, 1, 2, 3] S_
  h_S_ : 0 < S_.numel
  bcast_S_S8x8x1024x1024 : S_.BroadcastsInDim S8x8x1024x1024 (![] : Fin 0 → Fin S8x8x1024x1024.rank)
  reducesTo_S8x8x1024x1024_S_d0_1_2_3 : S8x8x1024x1024.ReducesTo [0, 1, 2, 3] S_

variable [Facts]

def fn {F : FTy → Type} [FloatOps F] (main_arg0 : FVec F S8x8x1024x64 .f32) (main_arg1 : FVec F S8x8x1024x64 .f32) (main_arg2 : FVec F S8x8x1024x1024 .f32) : IVec S_ 1 :=
  let main_v0 : FVec F S8x8x1024x64 .f32 := Host.absf main_arg0
  let main_cst : FVec F S_ .f32 := constant S_ .f32 0x7F800000#32
  let main_v1 : FVec F S8x8x1024x64 .f32 := broadcastInDim S8x8x1024x64 ![] bcast_S_S8x8x1024x64 main_cst
  let main_v2 : IVec S8x8x1024x64 1 := cmpf .olt main_v0 main_v1
  let main_c : IVec S_ 1 := constantI S_ 1 1#1
  let main_v3 : IVec S_ 1 := (fun x v => Host.reduce IntOp.andi x v reducesTo_S8x8x1024x64_S_d0_1_2_3 h_S_) main_v2 main_c
  let main_v4 : FVec F S8x8x1024x64 .f32 := Host.absf main_arg1
  let main_cst_0 : FVec F S_ .f32 := constant S_ .f32 0x7F800000#32
  let main_v5 : FVec F S8x8x1024x64 .f32 := broadcastInDim S8x8x1024x64 ![] bcast_S_S8x8x1024x64 main_cst_0
  let main_v6 : IVec S8x8x1024x64 1 := cmpf .olt main_v4 main_v5
  let main_c_1 : IVec S_ 1 := constantI S_ 1 1#1
  let main_v7 : IVec S_ 1 := (fun x v => Host.reduce IntOp.andi x v reducesTo_S8x8x1024x64_S_d0_1_2_3 h_S_) main_v6 main_c_1
  let main_v8 : IVec S_ 1 := andi main_v3 main_v7
  let main_v9 : FVec F S8x8x1024x1024 .f32 := Host.absf main_arg2
  let main_cst_2 : FVec F S_ .f32 := constant S_ .f32 0x7F800000#32
  let main_v10 : FVec F S8x8x1024x1024 .f32 := broadcastInDim S8x8x1024x1024 ![] bcast_S_S8x8x1024x1024 main_cst_2
  let main_v11 : IVec S8x8x1024x1024 1 := cmpf .olt main_v9 main_v10
  let main_c_3 : IVec S_ 1 := constantI S_ 1 1#1
  let main_v12 : IVec S_ 1 := (fun x v => Host.reduce IntOp.andi x v reducesTo_S8x8x1024x1024_S_d0_1_2_3 h_S_) main_v11 main_c_3
  let main_v13 : IVec S_ 1 := andi main_v8 main_v12
  main_v13
-- ==== Kernel.lean ====
abbrev S8x8x1024x64 : Shape := ⟨4, ![8, 8, 1024, 64]⟩
abbrev S8x8x1024x1024 : Shape := ⟨4, ![8, 8, 1024, 1024]⟩
abbrev S64x1024x64 : Shape := ⟨3, ![64, 1024, 64]⟩
abbrev S64x1024x1024 : Shape := ⟨3, ![64, 1024, 1024]⟩
abbrev S1x512x64 : Shape := ⟨3, ![1, 512, 64]⟩
abbrev S1x1024x64 : Shape := ⟨3, ![1, 1024, 64]⟩
abbrev S1x1024x1024 : Shape := ⟨3, ![1, 1024, 1024]⟩
abbrev S1x512x1024 : Shape := ⟨3, ![1, 512, 1024]⟩
abbrev S1024x1024 : Shape := ⟨2, ![1024, 1024]⟩
abbrev S1024x64 : Shape := ⟨2, ![1024, 64]⟩
abbrev S512x64 : Shape := ⟨2, ![512, 64]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8x8x1024x64, .f32⟩
  | .hbm, ⟨1, _⟩ => ⟨S8x8x1024x64, .f32⟩
  | .hbm, ⟨2, _⟩ => ⟨S8x8x1024x1024, .f32⟩
  | .hbm, ⟨3, _⟩ => ⟨S64x1024x64, .f32⟩
  | .hbm, ⟨4, _⟩ => ⟨S64x1024x64, .f32⟩
  | .hbm, ⟨5, _⟩ => ⟨S64x1024x1024, .f32⟩
  | .hbm, ⟨6, _⟩ => ⟨S64x1024x1024, .f32⟩
  | .hbm, ⟨7, _⟩ => ⟨S8x8x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1024, .f32⟩
  | .local _ .vmem, ⟨5, _⟩ => ⟨S1x1024x1024, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1024x64, .bf16⟩
  | _, _ => ⟨S8x8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x8x1024x64_S64x1024x64 : S8x8x1024x64.ShapeCasts S64x1024x64
  shapeCasts_S8x8x1024x1024_S64x1024x1024 : S8x8x1024x1024.ShapeCasts S64x1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S64x1024x1024_S8x8x1024x1024 : S64x1024x1024.ShapeCasts S8x8x1024x1024
  dot_S512x64_S1024x64_S512x1024_1_1_0_0_n_n_wf : DotDims.WF S512x64 S1024x64 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x1024x64.size a
  hwx0_0 : ∀ i : grid0.Coords, EltTy.bits .f32 = 32 ∨ (Rect.block (s := S64x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x1024x1024.size a
  hwx0_3 : ∀ i : grid0.Coords, EltTy.bits .f32 = 32 ∨ (Rect.block (s := S64x1024x1024) S1x512x1024.size (cc0_transform_3 i) (hinb0_3 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x1024x64 : Shape := ⟨4, ![8, 8, 1024, 64]⟩
abbrev S8x8x1024x1024 : Shape := ⟨4, ![8, 8, 1024, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x8x1024x64, .f32⟩
  | .hbm, ⟨1, _⟩ => ⟨S8x8x1024x64, .f32⟩
  | .hbm, ⟨2, _⟩ => ⟨S8x8x1024x1024, .f32⟩
  | .hbm, ⟨3, _⟩ => ⟨S_, .f32⟩
  | .hbm, ⟨4, _⟩ => ⟨S_, .f32⟩
  | .hbm, ⟨5, _⟩ => ⟨S8x8x1024x64, .f32⟩
  | .hbm, ⟨6, _⟩ => ⟨S8x8x1024x64, .i1⟩
  | .hbm, ⟨7, _⟩ => ⟨S_, .f32⟩
  | .hbm, ⟨8, _⟩ => ⟨S8x8x1024x64, .f32⟩
  | .hbm, ⟨9, _⟩ => ⟨S8x8x1024x64, .i1⟩
  | .hbm, ⟨10, _⟩ => ⟨S_, .f32⟩
  | .hbm, ⟨11, _⟩ => ⟨S_, .f32⟩
  | .hbm, ⟨12, _⟩ => ⟨S8x8x1024x64, .f32⟩
  | .hbm, ⟨13, _⟩ => ⟨S8x8x1024x64, .f32⟩
  | .hbm, ⟨14, _⟩ => ⟨S8x8x1024x64, .f32⟩
  | .hbm, ⟨15, _⟩ => ⟨S_, .f32⟩
  | .hbm, ⟨16, _⟩ => ⟨S8x8x1024x64, .f32⟩
  | .hbm, ⟨17, _⟩ => ⟨S8x8x1024x64, .f32⟩
  | .hbm, ⟨18, _⟩ => ⟨S8x8x1024x64, .f32⟩
  | .hbm, ⟨19, _⟩ => ⟨S_, .f32⟩
  | .hbm, ⟨20, _⟩ => ⟨S8x8x1024x64, .f32⟩
  | .hbm, ⟨21, _⟩ => ⟨S8x8x1024x64, .f32⟩
  | .hbm, ⟨22, _⟩ => ⟨S_, .f32⟩
  | .hbm, ⟨23, _⟩ => ⟨S_, .f32⟩
  | .hbm, ⟨24, _⟩ => ⟨S8x8x1024x64, .f32⟩
  | .hbm, ⟨25, _⟩ => ⟨S8x8x1024x64, .i1⟩
  | .hbm, ⟨26, _⟩ => ⟨S_, .f32⟩
  | .hbm, ⟨27, _⟩ => ⟨S8x8x1024x64, .f32⟩
  | .hbm, ⟨28, _⟩ => ⟨S8x8x1024x64, .i1⟩
  | .hbm, ⟨29, _⟩ => ⟨S_, .f32⟩
  | .hbm, ⟨30, _⟩ => ⟨S_, .f32⟩
  | .hbm, ⟨31, _⟩ => ⟨S8x8x1024x64, .f32⟩
  | .hbm, ⟨32, _⟩ => ⟨S8x8x1024x64, .f32⟩
  | .hbm, ⟨33, _⟩ => ⟨S8x8x1024x64, .f32⟩
  | .hbm, ⟨34, _⟩ => ⟨S_, .f32⟩
  | .hbm, ⟨35, _⟩ => ⟨S8x8x1024x64, .f32⟩
  | .hbm, ⟨36, _⟩ => ⟨S8x8x1024x64, .f32⟩
  | .hbm, ⟨37, _⟩ => ⟨S8x8x1024x64, .f32⟩
  | .hbm, ⟨38, _⟩ => ⟨S_, .f32⟩
  | .hbm, ⟨39, _⟩ => ⟨S8x8x1024x64, .f32⟩
  | .hbm, ⟨40, _⟩ => ⟨S8x8x1024x64, .f32⟩
  | .hbm, ⟨41, _⟩ => ⟨S8x8x1024x1024, .f32⟩
  | .hbm, ⟨42, _⟩ => ⟨S8x8x1024x1024, .f32⟩
  | .hbm, ⟨43, _⟩ => ⟨S8x8x1024x1024, .f32⟩
  | _, _ => ⟨S8x8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_v3 : Ref sig .tc := ⟨.hbm, 9, rfl⟩
abbrev main_call0_cst_1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_cst_1 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_cst_0 : Ref sig .tc := ⟨.hbm, 26, rfl⟩
abbrev main_call1_v2 : Ref sig .tc := ⟨.hbm, 27, rfl⟩
abbrev main_call1_v3 : Ref sig .tc := ⟨.hbm, 28, rfl⟩
abbrev main_call1_cst_1 : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_v3 : Ref sig .tc := ⟨.hbm, 37, rfl⟩
abbrev main_cst_2 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩

abbrev nD : Nat := 1
abbrev τ : Topo := Topo.v7x

variable {F : FTy → Type} [FloatOps F]

class Facts₀ : Prop where
  bcast_S_S8x8x1024x64 : S_.BroadcastsInDim S8x8x1024x64 (![] : Fin 0 → Fin S8x8x1024x64.rank)
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x1024_S8x8x1024x1024_3_2_2_3_01_01_wf : DotDims.WF S8x8x1024x1024 S8x8x1024x1024 S8x8x1024x1024 [3] [2] [2] [3] [0, 1] [0, 1]

variable [Facts₀]

def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x1024_S8x8x1024x1024_3_2_2_3_01_01 : DotDims S8x8x1024x1024 S8x8x1024x1024 S8x8x1024x1024 where
  lhsContracting := [3]
  rhsContracting := [2]
  lhsNonContracting := [2]
  rhsNonContracting := [3]
  lhsBatch := [0, 1]
  rhsBatch := [0, 1]
  wf := dot_S8x8x1024x1024_S8x8x1024x1024_S8x8x1024x1024_3_2_2_3_01_01_wf

class Facts : Prop extends Facts₀ where

variable [Facts]
-- ==== Proof.KPieces.lean ====
/-
  What one run of the kernel body leaves behind, as values.

  The body has two control cases. At the first row tile of a (batch, head) slice (case A) it first rewrites both
  scratch buffers — the key features of the slice's key block and the slice's value block — and then computes the
  output tile from the query block and from what it has just stored. At the other row tile (case B) it stores
  nothing into the scratch and computes the output tile from the query block and the scratch contents it finds.
  Each buffer is written by one store covering it whole, so what it holds afterwards is that store's value: a
  pure function (`k0_pay1`, `k0_pay2`, `k0_pay3`) of the loaded blocks, and in case A of the freshly stored
  scratch read back.
-/
import proofs.«178016_j36060545417824_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves the key features of the key block in the second scratch buffer. -/
theorem keyScratch_A (c : Dev nD) (i : grid0.Coords) (arg2 : Memref sig .tc .vmem S1x512x64 .f32) (harg2 : arg2.IsWhole) (arg3 : Memref sig .tc .vmem S1x1024x64 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1024x64 .bf16) (harg7 : arg7.IsWhole) (hc0 : cond0_0 i)
    (x0 : Vec F S1x512x64 .f32) (x1 : Vec F S1x1024x64 .f32) (x2 : Vec F S1x1024x1024 .f32) :
    sout0_A_1 c i arg2 harg2 arg3 harg3 arg4 harg4 arg5 harg5 arg6 harg6 arg7 harg7 hc0 x0 x1 x2 = k0_pay1 x1 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S1x1024x64) hz3]

/-- Case A leaves the value block, as the body re-lays it, in the first scratch buffer. -/
theorem valScratch_A (c : Dev nD) (i : grid0.Coords) (arg2 : Memref sig .tc .vmem S1x512x64 .f32) (harg2 : arg2.IsWhole) (arg3 : Memref sig .tc .vmem S1x1024x64 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1024x64 .bf16) (harg7 : arg7.IsWhole) (hc0 : cond0_0 i)
    (x0 : Vec F S1x512x64 .f32) (x1 : Vec F S1x1024x64 .f32) (x2 : Vec F S1x1024x1024 .f32) :
    sout0_A_0 c i arg2 harg2 arg3 harg3 arg4 harg4 arg5 harg5 arg6 harg6 arg7 harg7 hc0 x0 x1 x2 = k0_pay2 x2 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x1024x1024) hz3]

/-- Case A's output tile: the body's arithmetic of the query block and of the two scratch contents it has just
    stored. -/
theorem out_A (c : Dev nD) (i : grid0.Coords) (arg2 : Memref sig .tc .vmem S1x512x64 .f32) (harg2 : arg2.IsWhole) (arg3 : Memref sig .tc .vmem S1x1024x64 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1024x64 .bf16) (harg7 : arg7.IsWhole) (hc0 : cond0_0 i)
    (x0 : Vec F S1x512x64 .f32) (x1 : Vec F S1x1024x64 .f32) (x2 : Vec F S1x1024x1024 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3, View.readCov_unit_zero (S := S1024x64) _ hz2, View.readCov_unit_zero (S := S1024x1024) _ hz2]
  simp only [View.readAt_eq_ld, harg2.read_unread, harg3.read_unread, harg4.read_unread, View.ld_unit_zero (S := S1x512x64) hz3,
    View.ld_unit_zero (S := S1x1024x64) hz3, View.ld_unit_zero (S := S1x1024x1024) hz3]

/-- Case B's output tile: the same arithmetic of the query block and of the scratch contents found. -/
theorem out_B (c : Dev nD) (i : grid0.Coords) (arg2 : Memref sig .tc .vmem S1x512x64 .f32) (harg2 : arg2.IsWhole) (arg3 : Memref sig .tc .vmem S1x1024x64 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1024x64 .bf16) (harg7 : arg7.IsWhole) (hc0 : ¬cond0_0 i)
    (x0 : Vec F S1x512x64 .f32) (x1 : Vec F S1x1024x64 .f32) (x2 : Vec F S1x1024x1024 .f32) (xs0 : Vec F S1024x1024 .bf16) (xs1 : Vec F S1024x64 .bf16) :
    out0_B_3 c i arg2 harg2 arg3 harg3 arg4 harg4 arg5 harg5 arg6 harg6 arg7 harg7 hc0 x0 x1 x2 xs0 xs1 = k0_pay3 x0 xs1 xs0 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero hz3]
  simp only [View.readAt_eq_ld, harg2.read_unread, harg6.read_unread, harg7.read_unread, View.ld_unit_zero (S := S1x512x64) hz3,
    View.ld_unit_zero (S := S1024x64) hz2, View.ld_unit_zero (S := S1024x1024) hz2]

end Cert.KernelIdeal.Pieces

end
-- ==== Proof.KState.lean ====
/-
  What the output tile and the two scratch buffers hold after each grid point.

  At an even point (the first row tile of a slice) the scratch buffers are rewritten from the slice's key and value
  blocks and the output tile is computed from them and the query block. At an odd point the scratch buffers are what
  the point before left and the output tile is computed from them and the query block.
-/
import proofs.«178016_j36060545417824_2_alg».proof.Proof.KPieces

noncomputable section

open Idealize.ShloMosaic Idealize.ShloMosaic.TcCoe Idealize.SL.Sem
open Idealize.ShloMosaic.Pipeline (Dat)

namespace Cert.KernelIdeal.State

open Cert.KernelIdeal Cert.KernelIdeal.Gen Cert.KernelIdeal.Pieces

variable {F : FTy → Type} [FloatOps F]
variable (m : (ℓ : Loc nD τ sig) → Buf (Elt F) ℓ)

/-- After an even point: the output tile, the value scratch and the key-feature scratch, all from the point's own
    blocks. -/
theorem after_even (c : Dev nD) (t : Fin cfg0.N) (h0 : t.val % 2 = 0) :
    outsAt0 m c t.val t.isLt
      = (k0_pay3 (iblk m c 0 t) (k0_pay1 (iblk m c 1 t)) (k0_pay2 (iblk m c 2 t)), k0_pay2 (iblk m c 2 t), k0_pay1 (iblk m c 1 t)) := by
  rw [outsAt0_A m c t h0, out_A, valScratch_A, keyScratch_A]

/-- After an odd point: the scratch buffers as the point before left them, the output tile from them and the
    point's query block. -/
theorem after_odd (c : Dev nD) (t : Fin cfg0.N) (h0 : ¬t.val % 2 = 0) :
    outsAt0 m c t.val t.isLt
      = (k0_pay3 (iblk m c 0 t) (outsAt0 m c (t.val - 1) (Nat.lt_of_le_of_lt (Nat.sub_le _ _) t.isLt)).2.2
            (outsAt0 m c (t.val - 1) (Nat.lt_of_le_of_lt (Nat.sub_le _ _) t.isLt)).2.1,
         (outsAt0 m c (t.val - 1) (Nat.lt_of_le_of_lt (Nat.sub_le _ _) t.isLt)).2.1,
         (outsAt0 m c (t.val - 1) (Nat.lt_of_le_of_lt (Nat.sub_le _ _) t.isLt)).2.2) := by
  rw [outsAt0_B m c t h0, out_B]
  rfl

end Cert.KernelIdeal.State

end
-- ==== Proof.KBlocks.lean ====
/-
  Where a block sits in its array, and what the arrays are.

  The grid has 64 × 2 points, visited in row-major order: point `t` works on slice `t / 2` (one of the 64 (batch, head)
  pairs) and on row tile `t % 2` (512 of the 1024 query rows). The query window's block at `t` is rows
  `512 (t % 2) … 512 (t % 2) + 511` of slice `t / 2`; the key and value windows' blocks are the whole slice `t / 2`;
  the output window's block has the query block's position. The three arrays the windows stage are the arguments
  re-laid from [8, 8, ·, ·] to [64, ·, ·]: slice `8 b + h` of the staged array is slice (b, h) of the argument.
-/
import proofs.«178016_j36060545417824_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

theorem N_eq : cfg0.N = 128 := N_0

/-- The (batch, head) slice point `t` works on. -/
def slice (t : Fin cfg0.N) : Fin 64 := ⟨t.val / 2, by have := t.isLt; have := N_eq; omega⟩

/-- The query row, within its slice, of row `p` of point `t`'s tile. -/
def rowOf (t : Fin cfg0.N) (p : Fin 512) : Fin 1024 := ⟨(t.val % 2) * 512 + p.val, by have := p.isLt; omega⟩

/-- The printed index maps over the grid: slice `t / 2` for every window, row tile `t % 2` for the query and output
    windows, nothing else moves. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The query block at `t`, entry (p, d): the staged query array at slice `t / 2`, row `512 (t % 2) + p`. -/
theorem qblock_apply (c : Dev nD) (t : Fin cfg0.N) (p : Fin 512) (d : Fin 64) :
    (iblk m c 0 t : Vec F S1x512x64 .f32) (ix3 (0 : Fin 1) p d) = V m c main_v0 (ix3 (slice t) (rowOf t p) d) := by
  obtain ⟨e0, e1, e2, -⟩ := idx_facts t
  unfold iblk
  rw [View.read_apply]
  show V m c main_v0 (((cfg0.win 0).blk t).view.emb (ix3 (0 : Fin 1) p d)) = V m c main_v0 (ix3 (slice t) (rowOf t p) d)
  refine congrArg (V m c main_v0) ?_
  funext a; apply Fin.ext
  match a with
  | ⟨0, _⟩ => show win0_0.index t (0 : Fin 3) * 1 + 1 * 0 = t.val / 2; omega
  | ⟨1, _⟩ => show win0_0.index t (1 : Fin 3) * 512 + 1 * p.val = (t.val % 2) * 512 + p.val; omega
  | ⟨2, _⟩ => show win0_0.index t (2 : Fin 3) * 64 + 1 * d.val = d.val; omega

/-- The key block at `t`, entry (r, d): the staged key array at slice `t / 2`. -/
theorem kblock_apply (c : Dev nD) (t : Fin cfg0.N) (r : Fin 1024) (d : Fin 64) :
    (iblk m c 1 t : Vec F S1x1024x64 .f32) (ix3 (0 : Fin 1) r d) = V m c main_v1 (ix3 (slice t) r d) := by
  obtain ⟨-, -, -, e0, e1, e2, -⟩ := idx_facts t
  unfold iblk
  rw [View.read_apply]
  show V m c main_v1 (((cfg0.win 1).blk t).view.emb (ix3 (0 : Fin 1) r d)) = V m c main_v1 (ix3 (slice t) r d)
  refine congrArg (V m c main_v1) ?_
  funext a; apply Fin.ext
  match a with
  | ⟨0, _⟩ => show win0_1.index t (0 : Fin 3) * 1 + 1 * 0 = t.val / 2; omega
  | ⟨1, _⟩ => show win0_1.index t (1 : Fin 3) * 1024 + 1 * r.val = r.val; omega
  | ⟨2, _⟩ => show win0_1.index t (2 : Fin 3) * 64 + 1 * d.val = d.val; omega

/-- The value block at `t`, entry (r, q): the staged value array at slice `t / 2`. -/
theorem vblock_apply (c : Dev nD) (t : Fin cfg0.N) (r q : Fin 1024) :
    (iblk m c 2 t : Vec F S1x1024x1024 .f32) (ix3 (0 : Fin 1) r q) = V m c main_v2 (ix3 (slice t) r q) := by
  obtain ⟨-, -, -, -, -, -, e0, e1, e2, -⟩ := idx_facts t
  unfold iblk
  rw [View.read_apply]
  show V m c main_v2 (((cfg0.win 2).blk t).view.emb (ix3 (0 : Fin 1) r q)) = V m c main_v2 (ix3 (slice t) r q)
  refine congrArg (V m c main_v2) ?_
  funext a; apply Fin.ext
  match a with
  | ⟨0, _⟩ => show win0_2.index t (0 : Fin 3) * 1 + 1 * 0 = t.val / 2; omega
  | ⟨1, _⟩ => show win0_2.index t (1 : Fin 3) * 1024 + 1 * r.val = r.val; omega
  | ⟨2, _⟩ => show win0_2.index t (2 : Fin 3) * 1024 + 1 * q.val = q.val; omega

end Cert.KernelIdeal.Blocks

end
-- ==== Proof.PayloadIdx.lean ====
/-
  The two matrix products of the kernel body, as index arithmetic.

  The body forms two products. The first contracts the feature axis (64 long) of the query features [512, 64]
  with the feature axis of the key features [1024, 64]: its entry (p, r) is a sum over d of
  query-feature (p, d) times key-feature (r, d), the Gram matrix of the two feature maps. The second contracts
  the row axis (1024 long) of the values [1024, 1024] with the column axis of that Gram matrix [512, 1024]: its
  entry (p, q) is a sum over r of Gram (p, r) times value (r, q).

  A product's sum runs over the contraction shape's indices, a rank-1 index set here. This file identifies each
  with its one coordinate (`eK` with `Fin 64`, `eV` with `Fin 1024`) and computes, coordinate by coordinate,
  which entry of each operand the term at a given coordinate reads. Nothing here mentions a float.
-/
import proofs.«178016_j36060545417824_2_alg».proof.Proof.Gen.KernelIdeal.Skeleton
import Idealize.ShloMosaic.Lib.ValueIdx

noncomputable section

open Idealize.ShloMosaic Idealize.ShloMosaic.ValueIdx
open Cert.KernelIdeal Cert.KernelIdeal.Gen

namespace Cert.KernelIdeal.Pay

/-- The first product's dimension numbers: [512, 64] against [1024, 64], axis 1 of both contracted, result [512, 1024]. -/
abbrev DK : DotDims S512x64 S1024x64 S512x1024 := dot_S512x64_S1024x64_S512x1024_1_1_0_0_n_n
/-- The second product's: [512, 1024] against [1024, 1024], axis 1 of the left with axis 0 of the right, result [512, 1024]. -/
abbrev DV : DotDims S512x1024 S1024x1024 S512x1024 := dot_S512x1024_S1024x1024_S512x1024_1_0_0_1_n_n

/-- The first product contracts one axis … -/
theorem DK_rank : DK.contr.rank = 1 := rfl
/-- … of extent 64. -/
theorem DK_size : DK.contr.size ⟨0, by rw [DK_rank]; exact Nat.one_pos⟩ = 64 := rfl
/-- The second product contracts one axis … -/
theorem DV_rank : DV.contr.rank = 1 := rfl
/-- … of extent 1024. -/
theorem DV_size : DV.contr.size ⟨0, by rw [DV_rank]; exact Nat.one_pos⟩ = 1024 := rfl

/-- The first product's contraction index is its feature coordinate. -/
def eK : DK.contr.Idx ≃ Fin 64 := contrEquiv1 DK 64 DK_rank DK_size
/-- The second product's contraction index is its row coordinate. -/
def eV : DV.contr.Idx ≃ Fin 1024 := contrEquiv1 DV 1024 DV_rank DV_size

/-! ## The first product: entry (p, r), feature d

Each proof goes axis by axis: the definition of the operand index opens to a case split on which list the axis is
in, decided on the literal lists, and what is left is the coordinate itself carried along an equality of extents. -/

/-- The left operand is read at (p, d): the row of the result, the contracted feature. -/
theorem DK_lhs (p : Fin 512) (r : Fin 1024) (d : Fin 64) : DK.lhsIdx (ix2 p r) (eK.symm d) = ix2 p d := by
  funext a
  match a with
  | ⟨0, _⟩ =>
    apply Fin.ext
    simp [DotDims.lhsIdx, DK, dot_S512x64_S1024x64_S512x1024_1_1_0_0_n_n]
    rfl
  | ⟨1, _⟩ =>
    apply Fin.ext
    simp [DotDims.lhsIdx, DK, dot_S512x64_S1024x64_S512x1024_1_1_0_0_n_n]
    rfl

/-- The right operand is read at (r, d): the column of the result names the key row, the feature is contracted. -/
theorem DK_rhs (p : Fin 512) (r : Fin 1024) (d : Fin 64) : DK.rhsIdx (ix2 p r) (eK.symm d) = ix2 r d := by
  funext a
  match a with
  | ⟨0, _⟩ =>
    apply Fin.ext
    simp [DotDims.rhsIdx, DK, dot_S512x64_S1024x64_S512x1024_1_1_0_0_n_n]
    rfl
  | ⟨1, _⟩ =>
    apply Fin.ext
    simp [DotDims.rhsIdx, DK, dot_S512x64_S1024x64_S512x1024_1_1_0_0_n_n]
    rfl

/-! ## The second product: entry (p, q), row r -/

/-- The left operand is read at (p, r): the row of the result, the contracted column of the Gram matrix. -/
theorem DV_lhs (p : Fin 512) (q r : Fin 1024) : DV.lhsIdx (ix2 p q) (eV.symm r) = ix2 p r := by
  funext a
  match a with
  | ⟨0, _⟩ =>
    apply Fin.ext
    simp [DotDims.lhsIdx, DV, dot_S512x1024_S1024x1024_S512x1024_1_0_0_1_n_n]
    rfl
  | ⟨1, _⟩ =>
    apply Fin.ext
    simp [DotDims.lhsIdx, DV, dot_S512x1024_S1024x1024_S512x1024_1_0_0_1_n_n]
    rfl

/-- The right operand is read at (r, q): the contracted row of the values, the column of the result. -/
theorem DV_rhs (p : Fin 512) (q r : Fin 1024) : DV.rhsIdx (ix2 p q) (eV.symm r) = ix2 r q := by
  funext a
  match a with
  | ⟨0, _⟩ =>
    apply Fin.ext
    simp [DotDims.rhsIdx, DV, dot_S512x1024_S1024x1024_S512x1024_1_0_0_1_n_n]
    rfl
  | ⟨1, _⟩ =>
    apply Fin.ext
    simp [DotDims.rhsIdx, DV, dot_S512x1024_S1024x1024_S512x1024_1_0_0_1_n_n]
    rfl

end Cert.KernelIdeal.Pay

end
-- ==== Proof.Spec.lean ====
/-
  The function both programs compute, stated once over the argument arrays.

  For queries Q and keys K of shape [8, 8, 1024, 64] and values V of shape [8, 8, 1024, 1024], with the positive
  feature map  phi x = x + 1  for x > 0  and  e^x  otherwise  (ELU + 1),

      den (b, h, n, m)  =  sum over d of  phi Q[b,h,n,d] * phi K[b,h,m,d]          (the feature-map Gram matrix)
      out (b, h, n, v)  =  ( sum over m of  den (b,h,n,m) * V[b,h,m,v] )  /  den (b,h,n,v)

  on the extended reals.  One entry depends on one query row, on every key row of its (b, h) slice and on one
  column of V; `entry` states it over those rows, so that a blocked evaluation and a whole-array evaluation are
  compared by naming their rows.  The two spellings of the feature map that occur (a select between x + 1 and e^x;
  ELU written with e^x - 1, scaled by one, plus one) are the same function of every extended real, the infinities
  included, so no finiteness is needed anywhere.
-/
import Idealize.ShloMosaic.PureOps.Ideal
import Idealize.ShloMosaic.Lib.ValueIdx

noncomputable section

open scoped BigOperators

namespace Cert.Spec

open Idealize.ShloMosaic Idealize.ShloMosaic.ValueIdx

/-- The feature map ELU + 1: `x + 1` above zero, `e^x` at and below it. -/
def phi (x : EReal) : EReal := if 0 < x then x + 1 else Ideal.exp x

/-- One entry of the Gram matrix of the feature maps: a query row against a key row. -/
def den (qrow krow : Fin 64 → EReal) : EReal := ∑ d : Fin 64, phi (qrow d) * phi (krow d)

/-- One output entry, from its query row, the key rows of its slice, its column of V and its column number:
    the Gram row times the column, over the Gram entry at the column. -/
def entry (qrow : Fin 64 → EReal) (krows : Fin 1024 → Fin 64 → EReal) (vcol : Fin 1024 → EReal) (v : Fin 1024) : EReal :=
  Ideal.div (∑ m : Fin 1024, den qrow (krows m) * vcol m) (den qrow (krows v))

/-- The shape of Q and of K. -/
abbrev SQK : Shape := ⟨4, ![8, 8, 1024, 64]⟩
/-- The shape of V and of the result. -/
abbrev SV : Shape := ⟨4, ![8, 8, 1024, 1024]⟩

/-- The result at coordinates (b, h, n, v). -/
def Gc (Q K : SQK.Idx → EReal) (V : SV.Idx → EReal) (b h : Fin 8) (n v : Fin 1024) : EReal :=
  entry (fun d => Q (ix4 b h n d)) (fun m d => K (ix4 b h m d)) (fun m => V (ix4 b h m v)) v

/-- The result array. -/
def G (Q K : SQK.Idx → EReal) (V : SV.Idx → EReal) : SV.Idx → EReal :=
  fun i => Gc Q K V (i 0) (i 1) (i 2) (i 3)

theorem G_ix4 (Q K : SQK.Idx → EReal) (V : SV.Idx → EReal) (b h : Fin 8) (n v : Fin 1024) :
    G Q K V (ix4 b h n v) = Gc Q K V b h n v := rfl

/-! ## The float words that occur -/

/-- The word of `1.0` denotes one. -/
theorem one_f32 : Ideal.ofBits .f32 0x3F800000#32 = 1 := by
  simp [Ideal.ofBits, Ideal.ieee, -EReal.coe_mul]; norm_num

/-- The word of `+0.0` denotes zero. -/
theorem zero_f32 : Ideal.ofBits .f32 0x00000000#32 = 0 := by
  simp [Ideal.ofBits, Ideal.ieee]

/-! ## The two spellings of the feature map -/

/-- Selecting `x + 1` where `x > 0` and `e^x` elsewhere is `phi`. -/
theorem phi_select (x : EReal) :
    Scalar.select (Ideal.cmp .ogt x 0) (x + 1) (Ideal.exp x) = phi x := by
  unfold phi
  by_cases h : 0 < x <;> simp [Ideal.cmp, Scalar.select, h]

/-- ELU plus one — `x` where `x > 0`, elsewhere one times `e^y - 1` with `y` the argument made harmless
    (zero where `x > 0`), and one added — is `phi`: below zero `1 * (e^x - 1) + 1 = e^x`, also at `-∞`
    where `e^x = 0`. -/
theorem phi_elu (x : EReal) :
    Scalar.select (Ideal.cmp .ogt x 0) x (1 * (Ideal.exp (Scalar.select (Ideal.cmp .ogt x 0) 0 x) - 1)) + 1 = phi x := by
  unfold phi
  by_cases h : 0 < x
  · simp [Ideal.cmp, Scalar.select, h]
  · simp only [Ideal.cmp, Scalar.select, h, decide_false, BitVec.ofBool_false, if_neg (by decide : ¬ (0#1 = 1#1)), if_false, one_mul]
    induction x using EReal.rec with
    | bot =>
      show (0 : EReal) - 1 + 1 = 0
      rw [zero_sub, ← EReal.coe_one, ← EReal.coe_neg, ← EReal.coe_add]; norm_num
    | top => exact absurd EReal.zero_lt_top h
    | coe r =>
      show ((Real.exp r : ℝ) : EReal) - 1 + 1 = ((Real.exp r : ℝ) : EReal)
      rw [← EReal.coe_one, ← EReal.coe_sub, ← EReal.coe_add, sub_add_cancel]

end Cert.Spec

end
-- ==== Proof.Payload.lean ====
/-
  The kernel body's three stored values, read one entry at a time on the extended reals.

  At the first column block of a (batch, head) slice the body stores two things it keeps for the whole slice: the
  key features  phi K[m, d]  (phi x = x + 1 above zero, e^x at and below it) and the values V[m, v], both narrowed to
  a sixteen-bit format — which on the extended reals changes nothing. At every block it then forms, for its 512
  query rows n,

      den (n, m)  =  sum over d of  phi Q[n, d] * phi K[m, d]
      out (n, v)  =  ( sum over m of  den (n, m) * V[m, v] )  /  den (n, v)

  the first sum a product against the stored key features, the second a product of that Gram matrix (narrowed again:
  the identity) against the stored values, the quotient taken entry by entry. This file says exactly that of the three
  named values: the key features at (m, d) are `Spec.phi` of the key block's entry, the stored values are the value
  block's entries, and the result at (n, v) is `Spec.entry` of the query row, of whatever rows the stored key features
  are the features of, and of column v of the stored values.

  The steps, each one entry at a time: a change of float format is the identity; a cast between [1, a, b] and
  [a, b] only renames the index, (0, i, j) for (i, j); the comparison with zero selecting between x + 1 and e^x is
  phi once the two constant words are read as 0 and 1; a product into a zero accumulator is the plain sum over the
  contracted coordinate, its operand entries named in the index file.
-/
import proofs.«178016_j36060545417824_2_alg».proof.Proof.PayloadIdx
import proofs.«178016_j36060545417824_2_alg».proof.Proof.Spec
import Idealize.ShloMosaic.Lib.ValueLayout
import Idealize.ShloMosaic.PureOps.Ideal.Laws

noncomputable section

open scoped BigOperators
open Idealize.ShloMosaic Idealize.ShloMosaic.ValueIdx
open Cert.KernelIdeal Cert.KernelIdeal.Gen

namespace Cert.KernelIdeal.Pay

/-! ## Two readings the index vocabulary leaves out -/

/-- The exponential of a vector, at an index, is the exponential of the entry. -/
theorem exp_apply {s : Shape} {φ : FTy} (a : FVec Ideal s φ) (i : s.Idx) : exp a i = Ideal.exp (a i) := rfl

/-- On the extended reals a constant word is the number it encodes. -/
theorem ofBits_apply (φ : FTy) (b : BitVec φ.bits) : (FloatOps.ofBits φ b : Ideal φ) = Ideal.ofBits φ b := rfl

/-! ## The key features and the values kept for the slice -/

/-- The stored key features at (r, d): phi of the key block's entry (0, r, d). The block is cast from [1, 1024, 64] to
    [1024, 64], compared with zero, and x + 1 or e^x selected; the narrowing and the last cast (to the same shape)
    change nothing. -/
theorem keyFeatures_apply (x1 : FVec Ideal S1x1024x64 .f32) (r : Fin 1024) (d : Fin 64) :
    k0_pay1 (F := Ideal) x1 (ix2 r d) = Cert.Spec.phi (x1 (ix3 (0 : Fin 1) r d)) := by
  unfold k0_pay1
  rw [shapeCast_self]
  simp only [truncf_apply, select_apply, cmpf_apply, addf_apply, broadcast_apply, exp_apply, shapeCast_1ab_ab_apply,
    Ideal.cmpf_def, ofBits_apply, Cert.Spec.zero_f32, Cert.Spec.one_f32]
  exact Cert.Spec.phi_select _

/-- The stored values at (r, q): the value block's entry (0, r, q), the casts renaming the index and the narrowing the
    identity. -/
theorem values_apply (x2 : FVec Ideal S1x1024x1024 .f32) (r q : Fin 1024) :
    k0_pay2 (F := Ideal) x2 (ix2 r q) = x2 (ix3 (0 : Fin 1) r q) := by
  unfold k0_pay2
  rw [shapeCast_self, truncf_apply, shapeCast_1ab_ab_apply]

/-! ## The result block

Its value is named in two steps, so that each is read alone: the query features, and their Gram matrix against the
stored key features. The result is then the Gram matrix times the stored values, over the Gram matrix. -/

/-- The query features of a block: phi of each entry, spelled as the body spells it. -/
def qf (x0 : FVec Ideal S1x512x64 .f32) : FVec Ideal S512x64 .bf16 :=
  truncf .bf16
    (select
      (cmpf .ogt (shapeCast S512x64 x0 shapeCasts_S1x512x64_S512x64) (broadcast S512x64 (Scalar.ofBits .f32 0x00000000#32)))
      (addf (shapeCast S512x64 x0 shapeCasts_S1x512x64_S512x64) (broadcast S512x64 (Scalar.ofBits .f32 0x3F800000#32)))
      (exp (shapeCast S512x64 x0 shapeCasts_S1x512x64_S512x64)))
    bitsLt_bf16_f32

/-- The Gram matrix of a query block against the stored key features: their product over the feature axis, from zero. -/
def gram (x0 : FVec Ideal S1x512x64 .f32) (kf : FVec Ideal S1024x64 .bf16) : FVec Ideal S512x1024 .f32 :=
  matmul DK none (qf x0) kf (constant S512x1024 .f32 0x00000000#32)

/-- The result block is, by its definition, the Gram matrix (narrowed) times the stored values, from zero, divided
    entry by entry by the Gram matrix, with a unit axis put in front. -/
theorem k0_pay3_eq (x0 : FVec Ideal S1x512x64 .f32) (kf : FVec Ideal S1024x64 .bf16) (vb : FVec Ideal S1024x1024 .bf16) :
    k0_pay3 (F := Ideal) x0 kf vb
      = shapeCast S1x512x1024
          (divf (matmul DV none (truncf .bf16 (gram x0 kf) bitsLt_bf16_f32) vb (constant S512x1024 .f32 0x00000000#32))
            (gram x0 kf))
          shapeCasts_S512x1024_S1x512x1024 := rfl

/-- The query features at (p, d): phi of the query block's entry (0, p, d). -/
theorem qf_apply (x0 : FVec Ideal S1x512x64 .f32) (p : Fin 512) (d : Fin 64) :
    qf x0 (ix2 p d) = Cert.Spec.phi (x0 (ix3 (0 : Fin 1) p d)) := by
  unfold qf
  simp only [truncf_apply, select_apply, cmpf_apply, addf_apply, broadcast_apply, exp_apply, shapeCast_1ab_ab_apply,
    Ideal.cmpf_def, Scalar.ofBits, ofBits_apply, Cert.Spec.zero_f32, Cert.Spec.one_f32]
  exact Cert.Spec.phi_select _

/-- The Gram matrix at (p, r), when the stored key features are the features of the rows `krows`: the sum over the
    feature coordinate d of  phi Q[p, d] * phi K[r, d], that is `Spec.den` of query row p and key row r. The product's
    sum over its contraction index is re-indexed by the feature coordinate, and each term reads the query features at
    (p, d) and the key features at (r, d). -/
theorem gram_apply (x0 : FVec Ideal S1x512x64 .f32) (kf : FVec Ideal S1024x64 .bf16) (krows : Fin 1024 → Fin 64 → EReal)
    (hk : ∀ r d, kf (ix2 r d) = Cert.Spec.phi (krows r d)) (p : Fin 512) (r : Fin 1024) :
    gram x0 kf (ix2 p r) = Cert.Spec.den (fun d => x0 (ix3 (0 : Fin 1) p d)) (krows r) := by
  unfold gram Cert.Spec.den
  simp only [matmul]
  rw [Ideal.matmul_constant_zero_apply, ← Equiv.sum_comp eK.symm]
  refine Finset.sum_congr rfl fun d _ => ?_
  rw [DK_lhs, DK_rhs, qf_apply, hk]

/-- The result block at (0, p, q), when the stored key features are the features of the rows `krows` and column q of
    the stored values is `vcol`: `Spec.entry` of query row p, those key rows, that column and q. The leading unit axis
    is dropped, the quotient read at (p, q); its denominator is the Gram entry (p, q); its numerator, the second
    product's sum re-indexed by the row coordinate r, has the terms  Gram (p, r) * V[r, q]. -/
theorem out_apply (x0 : FVec Ideal S1x512x64 .f32) (kf : FVec Ideal S1024x64 .bf16) (vb : FVec Ideal S1024x1024 .bf16)
    (krows : Fin 1024 → Fin 64 → EReal) (vcol : Fin 1024 → EReal) (p : Fin 512) (q : Fin 1024)
    (hk : ∀ r d, kf (ix2 r d) = Cert.Spec.phi (krows r d)) (hv : ∀ r, vb (ix2 r q) = vcol r) :
    k0_pay3 (F := Ideal) x0 kf vb (ix3 (0 : Fin 1) p q) = Cert.Spec.entry (fun d => x0 (ix3 (0 : Fin 1) p d)) krows vcol q := by
  rw [k0_pay3_eq, shapeCast_ab_1ab_apply, divf_apply]
  unfold Cert.Spec.entry
  simp only [matmul]
  rw [Ideal.matmul_constant_zero_apply, ← Equiv.sum_comp eV.symm, gram_apply x0 kf krows hk]
  refine congrArg (fun s => Ideal.div s _) (Finset.sum_congr rfl fun r _ => ?_)
  rw [DV_lhs, DV_rhs, truncf_apply, gram_apply x0 kf krows hk, hv]

end Cert.KernelIdeal.Pay

end
-- ==== Proof.KInv.lean ====
/-
  The invariant of the grid walk, read as numbers.

  After every grid point `t`, of slice `s = t / 2`:
    * the key-feature scratch holds  phi K[s, r, d]  at (r, d),
    * the value scratch holds  V[s, r, q]  at (r, q),
    * the output tile holds, at (p, q), the attention entry of query row `512 (t % 2) + p` of slice `s` against the
      slice's keys and column `q` of the slice's values,
  where Q, K, V are the staged arrays. At an even point all three come from the point's own blocks. At an odd point
  the scratch buffers are those of the point before, which belongs to the same slice because `(t - 1) / 2 = t / 2`
  for odd `t`; the tile is computed from them. So the statement passes from each point to the next.
-/
import proofs.«178016_j36060545417824_2_alg».proof.Proof.KState
import proofs.«178016_j36060545417824_2_alg».proof.Proof.KBlocks
import proofs.«178016_j36060545417824_2_alg».proof.Proof.Payload
import proofs.«178016_j36060545417824_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Blocks Cert.KernelIdeal.State Cert.KernelIdeal.Pay

variable (m : (ℓ : Loc nD τ sig) → Buf (Elt Ideal) ℓ)

/-- The attention entry of query row `n` of slice `s` at column `v`, over the staged arrays. -/
def tileEntry (c : Dev nD) (s : Fin 64) (n v : Fin 1024) : EReal :=
  Cert.Spec.entry (fun d => V m c main_v0 (ix3 s n d)) (fun r d => V m c main_v1 (ix3 s r d))
    (fun r => V m c main_v2 (ix3 s r v)) v

/-- What holds after grid point `t`. -/
structure Holds (c : Dev nD) (t : Fin cfg0.N) : Prop where
  keys : ∀ (r : Fin 1024) (d : Fin 64),
    (outsAt0 m c t.val t.isLt).2.2 (ix2 r d) = Cert.Spec.phi (V m c main_v1 (ix3 (slice t) r d))
  vals : ∀ r q : Fin 1024, (outsAt0 m c t.val t.isLt).2.1 (ix2 r q) = V m c main_v2 (ix3 (slice t) r q)
  tile : ∀ (p : Fin 512) (q : Fin 1024),
    (outsAt0 m c t.val t.isLt).1 (ix3 (0 : Fin 1) p q) = tileEntry m c (slice t) (rowOf t p) q

/-- The tile computed from scratch contents that are the slice's key features and values is the slice's entry. -/
theorem tile_of_scratch (c : Dev nD) (t : Fin cfg0.N) (kf : FVec Ideal S1024x64 .bf16) (vb : FVec Ideal S1024x1024 .bf16)
    (hk : ∀ (r : Fin 1024) (d : Fin 64), kf (ix2 r d) = Cert.Spec.phi (V m c main_v1 (ix3 (slice t) r d)))
    (hv : ∀ r q : Fin 1024, vb (ix2 r q) = V m c main_v2 (ix3 (slice t) r q)) (p : Fin 512) (q : Fin 1024) :
    k0_pay3 (F := Ideal) (iblk m c 0 t) kf vb (ix3 (0 : Fin 1) p q) = tileEntry m c (slice t) (rowOf t p) q :=
  (out_apply (iblk m c 0 t) kf vb (fun r d => V m c main_v1 (ix3 (slice t) r d)) (fun r => V m c main_v2 (ix3 (slice t) r q)) p q
    hk (fun r => hv r q)).trans
    (congrArg (fun f : Fin 64 → EReal => Cert.Spec.entry f (fun r d => V m c main_v1 (ix3 (slice t) r d))
        (fun r => V m c main_v2 (ix3 (slice t) r q)) q)
      (funext fun d => qblock_apply m c t p d))

/-- At an even point everything comes from the point's own blocks. -/
theorem holds_even (c : Dev nD) (t : Fin cfg0.N) (h0 : t.val % 2 = 0) : Holds m c t := by
  have hk : ∀ (r : Fin 1024) (d : Fin 64),
      k0_pay1 (F := Ideal) (iblk m c 1 t) (ix2 r d) = Cert.Spec.phi (V m c main_v1 (ix3 (slice t) r d)) := fun r d =>
    (keyFeatures_apply (iblk m c 1 t) r d).trans (congrArg Cert.Spec.phi (kblock_apply m c t r d))
  have hv : ∀ r q : Fin 1024, k0_pay2 (F := Ideal) (iblk m c 2 t) (ix2 r q) = V m c main_v2 (ix3 (slice t) r q) := fun r q =>
    (values_apply (iblk m c 2 t) r q).trans (vblock_apply m c t r q)
  refine ⟨?_, ?_, ?_⟩
  · intro r d; rw [after_even m c t h0]; exact hk r d
  · intro r q; rw [after_even m c t h0]; exact hv r q
  · intro p q; rw [after_even m c t h0]; exact tile_of_scratch m c t _ _ hk hv p q

/-- At an odd point the scratch is the previous point's, of the same slice. -/
theorem holds_odd (c : Dev nD) (t : Fin cfg0.N) (h0 : ¬t.val % 2 = 0)
    (ih : Holds m c ⟨t.val - 1, Nat.lt_of_le_of_lt (Nat.sub_le _ _) t.isLt⟩) : Holds m c t := by
  have hs : slice ⟨t.val - 1, Nat.lt_of_le_of_lt (Nat.sub_le _ _) t.isLt⟩ = slice t :=
    Fin.ext (by show (t.val - 1) / 2 = t.val / 2; omega)
  have hk := ih.keys
  have hv := ih.vals
  rw [hs] at hk hv
  refine ⟨?_, ?_, ?_⟩
  · intro r d; rw [after_odd m c t h0]; exact hk r d
  · intro r q; rw [after_odd m c t h0]; exact hv r q
  · intro p q; rw [after_odd m c t h0]; exact tile_of_scratch m c t _ _ hk hv p q

/-- So it holds after every point. -/
theorem holds (c : Dev nD) : ∀ (n : ℕ) (h : n < cfg0.N), Holds m c ⟨n, h⟩
  | 0, h => holds_even m c ⟨0, h⟩ rfl
  | n + 1, h => by
    by_cases h0 : (n + 1) % 2 = 0
    · exact holds_even m c ⟨n + 1, h⟩ h0
    · exact holds_odd m c ⟨n + 1, h⟩ h0 (holds c n (Nat.lt_of_succ_lt h))

end Cert.KernelIdeal.Inv

end
-- ==== Proof.KCover.lean ====
/-
  The result window's tiles: where each sits in the result array, and that together they cover it.

  The kernel's result array has shape [64, 1024, 1024]: 64 (batch, head) slices of 1024 query rows by 1024 columns.
  Grid point `t` (of 128) writes back one tile of shape [1, 512, 1024]: slice `t / 2`, rows `512 (t % 2)` to
  `512 (t % 2) + 511`, every column. So entry (0, p, q) of the tile is entry (t / 2, 512 (t % 2) + p, q) of the array;
  an index of the array lies in tile `t` exactly when each coordinate lies in the tile's range on its axis; and the
  index (s, n, v) lies in the tile of point `2 s + n / 512`, so every index is written by some point.
-/
import proofs.«178016_j36060545417824_2_alg».proof.Proof.KBlocks

noncomputable section

open Idealize.ShloMosaic Idealize.ShloMosaic.TcCoe Idealize.SL.Sem Idealize.ShloMosaic.ValueIdx

namespace Cert.KernelIdeal.Cover

open Cert.KernelIdeal Cert.KernelIdeal.Gen

/-- Entry (0, p, q) of point `t`'s tile is entry (slice of `t`, row `512 (t % 2) + p`, q) of the result array: on each
    axis the tile's position times the tile's extent, plus the coordinate within the tile. -/
theorem tile_emb (t : Fin cfg0.N) (p : Fin 512) (q : Fin 1024) :
    ((cfg0.win 3).blk t).view.emb (ix3 (0 : Fin 1) p q) = ix3 (Blocks.slice t) (Blocks.rowOf t p) q := by
  obtain ⟨-, -, -, -, -, -, -, -, -, e0, e1, e2⟩ := Blocks.idx_facts t
  funext a; apply Fin.ext
  match a with
  | ⟨0, _⟩ => show win0_3.index t (0 : Fin 3) * 1 + 1 * 0 = t.val / 2; omega
  | ⟨1, _⟩ => show win0_3.index t (1 : Fin 3) * 512 + 1 * p.val = (t.val % 2) * 512 + p.val; omega
  | ⟨2, _⟩ => show win0_3.index t (2 : Fin 3) * 1024 + 1 * q.val = q.val; omega

/-- An index of the result array is in point `t`'s tile iff each coordinate is in the tile's range on its axis: the tile
    is a rectangle of the whole array. -/
theorem mem_tile (t : Fin cfg0.N) (i : S64x1024x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v3).slice (win0_3.rect t)).set ↔ _
  rw [View.set_slice_whole, Rect.mem_set_unit]
  exact Iff.rfl

/-- Every index (s, n, v) of the result array is in the tile of a point that writes back: the point `2 s + n / 512`,
    whose slice is `s` and whose row tile `n / 512` holds row `n`. -/
theorem covered (i : S64x1024x1024.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 1024 := (i 2).isLt
  have hN : cfg0.N = 128 := Blocks.N_eq
  obtain ⟨t, ht⟩ : ∃ t : Fin cfg0.N, t.val = 2 * (i 0).val + (i 1).val / 512 :=
    ⟨⟨2 * (i 0).val + (i 1).val / 512, by omega⟩, rfl⟩
  obtain ⟨-, -, -, -, -, -, -, -, -, e0, e1, e2⟩ := Blocks.idx_facts t
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

end Cert.KernelIdeal.Cover

end
-- ==== Proof.KFinal.lean ====
/-
  The kernel's result array after the whole grid.

  Every grid point writes its output tile back into the result array [64, 1024, 1024]; the tiles cover it, and by the
  invariant of the grid walk the tile of point `t` holds the attention entries of its rows. So the result array
  holds, at (s, n, v), the attention entry of query row `n` of slice `s` at column `v` over the staged arrays.
-/
import proofs.«178016_j36060545417824_2_alg».proof.Proof.KInv
import proofs.«178016_j36060545417824_2_alg».proof.Proof.KCover

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Inv Cert.KernelIdeal.Cover

variable (m : (ℓ : Loc nD τ sig) → Buf (Elt Ideal) ℓ)

/-- The result array: at (s, n, v) the attention entry of row `n` of slice `s` at column `v`. -/
def staged (c : Dev nD) : S64x1024x1024.Idx → EReal := fun j => tileEntry m c (j 0) (j 1) (j 2)

theorem staged_ix3 (c : Dev nD) (s : Fin 64) (n v : Fin 1024) : staged m c (ix3 s n v) = tileEntry m c s n v := rfl

/-- What point `t` writes back is tile `t` of that array. -/
theorem flushed_eq (c : Dev nD) (t : Fin cfg0.N) :
    (dats m 0 c).flushed 3 t = ((cfg0.win 3).blk t).view.read (Elt Ideal) (staged m c) := by
  show (cfg0.win 3).cut (grid0.coords t) ((dats m 0 c).after 3 t) = _
  rw [after0_3]
  funext y
  obtain ⟨u, p, q, rfl⟩ : ∃ (u : Fin 1) (p : Fin 512) (q : Fin 1024), y = ix3 u p q := ⟨y 0, y 1, y 2, eq_ix3 y⟩
  obtain rfl : u = 0 := Subsingleton.elim _ _
  rw [View.read_apply, tile_emb]
  exact (holds m c t.val t.isLt).tile p q

/-- The tiles cover the array, so after the last point it is `staged`. -/
theorem final (c : Dev nD) : (dats m 0 c).arrAt 3 cfg0.N = staged m c :=
  (dats m 0 c).arrAt_eq_of_cover 3 (staged m c) (fun t _ => flushed_eq m c t) covered

end Cert.KernelIdeal.Final

end
-- ==== Proof.KTail.lean ====
/-
  What the program returns: the kernel's result array, re-laid.

  After the kernel has run over its grid, one host operation remains: the result array [64, 1024, 1024] — one slice
  per (batch, head) pair — is reshaped to [8, 8, 1024, 1024], the entries kept in row-major order. Nothing else is
  written after the kernel. So the returned buffer is that reshape of the kernel's result array as the last grid point
  leaves it, whatever the float instance.
-/
import proofs.«178016_j36060545417824_2_alg».proof.Proof.KBlocks

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ)

/-- The returned buffer after the host operation that follows the kernel: the reshape to [8, 8, 1024, 1024] of the
    kernel's result array after all 128 grid points. The one operation writes the returned buffer from the result
    array, and the result array, being the fourth window's array, holds what the grid left in it. -/
theorem result_eq (c : Dev nD) :
    Pipeline.afterTail₀ cfgs (dats m) 0 (V0 m) [hostOps1] c main_v4
      = shapeCast S8x8x1024x1024 ((dats m 0 c).arrAt 3 cfg0.N) shapeCasts_S64x1024x1024_S8x8x1024x1024 := by
  unfold Pipeline.afterTail₀
  show StableHlo.after hostOps1 _ (Proc.devRef .tc main_v4) = _
  after_results
  have h := Pipeline.withArrays_arr spec0 launch0.win.arr_inj c (V0 m c) (fun w => (dats m 0 c).arrAt w cfg0.N) 3
  funext i
  exact congrArg
    (fun A : S64x1024x1024.Idx → Elt F .f32 => shapeCast S8x8x1024x1024 A shapeCasts_S64x1024x1024_S8x8x1024x1024 i) h

/-- The same read out of a final state of the whole run: the returned buffer is no window's array, so the run's post
    gives it the contents computed above. -/
theorem result_mem (r)
    (h : Pipeline.FramePost cfgs (dats m) 0 (Pipeline.afterTail₀ cfgs (dats m) 0 (V0 m) [hostOps1]) r) (c : Dev nD) :
    r.2.mem ((c : Thread nD τ).loc main_v4)
      = shapeCast S8x8x1024x1024 ((dats m 0 c).arrAt 3 cfg0.N) shapeCasts_S64x1024x1024_S8x8x1024x1024 :=
  ((h c).2 main_v4 (Pipeline.mem_restRefs_of main_v4 (by decide) (by decide))).trans (result_eq m c)

end Cert.KernelIdeal.Tail

end
-- ==== Proof.KStaged.lean ====
/-
  The staged arrays are the arguments re-laid.

  Before the kernel is launched the three arguments, of shapes [8, 8, 1024, ·], are re-laid to [64, 1024, ·] with the
  same row-major order: slice `8 b + h` of a staged array is slice (b, h) of its argument, rows and columns in place.
-/
import proofs.«178016_j36060545417824_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Staged

open Cert.KernelIdeal Cert.KernelIdeal.Gen

variable {F : FTy → Type} [FloatOps F]
variable (m : (ℓ : Loc nD τ sig) → Buf (Elt F) ℓ)

/-- The slice number of batch `b`, head `h`. -/
def sliceOf (b h : Fin 8) : Fin 64 := ⟨8 * b.val + h.val, by have := b.isLt; have := h.isLt; omega⟩

/-- Re-laying [8, 8, 1024, 64] to [64, 1024, 64] keeps row-major order: (8 b + h, n, d) reads (b, h, n, d). -/
theorem relay64_apply {α : Type} (X : S8x8x1024x64.Idx → α) (b h : Fin 8) (n : Fin 1024) (d : Fin 64) :
    shapeCast S64x1024x64 X shapeCasts_S8x8x1024x64_S64x1024x64 (ix3 (sliceOf b h) n d) = X (ix4 b h n d) :=
  shapeCast_apply X _ _ _ (by
    rw [Shape.rowMajor_val_four, Shape.rowMajor_val_three]
    show ((b.val * 8 + h.val) * 1024 + n.val) * 64 + d.val = ((8 * b.val + h.val) * 1024 + n.val) * 64 + d.val
    omega)

/-- The same for [8, 8, 1024, 1024] to [64, 1024, 1024]. -/
theorem relay1024_apply {α : Type} (X : S8x8x1024x1024.Idx → α) (b h : Fin 8) (n v : Fin 1024) :
    shapeCast S64x1024x1024 X shapeCasts_S8x8x1024x1024_S64x1024x1024 (ix3 (sliceOf b h) n v) = X (ix4 b h n v) :=
  shapeCast_apply X _ _ _ (by
    rw [Shape.rowMajor_val_four, Shape.rowMajor_val_three]
    show ((b.val * 8 + h.val) * 1024 + n.val) * 1024 + v.val = ((8 * b.val + h.val) * 1024 + n.val) * 1024 + v.val
    omega)

/-- And back: [64, 1024, 1024] re-laid to [8, 8, 1024, 1024] reads, at (b, h, n, v), slice `8 b + h` at (n, v). -/
theorem unrelay_apply {α : Type} (X : S64x1024x1024.Idx → α) (b h : Fin 8) (n v : Fin 1024) :
    shapeCast S8x8x1024x1024 X shapeCasts_S64x1024x1024_S8x8x1024x1024 (ix4 b h n v) = X (ix3 (sliceOf b h) n v) :=
  shapeCast_apply X _ _ _ (by
    rw [Shape.rowMajor_val_four, Shape.rowMajor_val_three]
    show ((8 * b.val + h.val) * 1024 + n.val) * 1024 + v.val = ((b.val * 8 + h.val) * 1024 + n.val) * 1024 + v.val
    omega)

/-- The staged query array is the first argument re-laid. -/
theorem staged_q (c : Dev nD) : (V m c main_v0 : S64x1024x64.Idx → Elt F .f32)
    = shapeCast S64x1024x64 (m ((c : Thread nD τ).loc main_arg0)) shapeCasts_S8x8x1024x64_S64x1024x64 := by
  show StableHlo.after hostOps0 (fun b => m (c, b)) (Proc.devRef .tc main_v0) = _
  after_results
  rfl

/-- The staged key array is the second argument re-laid. -/
theorem staged_k (c : Dev nD) : (V m c main_v1 : S64x1024x64.Idx → Elt F .f32)
    = shapeCast S64x1024x64 (m ((c : Thread nD τ).loc main_arg1)) shapeCasts_S8x8x1024x64_S64x1024x64 := by
  show StableHlo.after hostOps0 (fun b => m (c, b)) (Proc.devRef .tc main_v1) = _
  after_results
  rfl

/-- The staged value array is the third argument re-laid. -/
theorem staged_v (c : Dev nD) : (V m c main_v2 : S64x1024x1024.Idx → Elt F .f32)
    = shapeCast S64x1024x1024 (m ((c : Thread nD τ).loc main_arg2)) shapeCasts_S8x8x1024x1024_S64x1024x1024 := by
  show StableHlo.after hostOps0 (fun b => m (c, b)) (Proc.devRef .tc main_v2) = _
  after_results
  rfl

/-- Entry (8 b + h, n, d) of the staged query array is entry (b, h, n, d) of the first argument. -/
theorem staged_q_apply (c : Dev nD) (b h : Fin 8) (n : Fin 1024) (d : Fin 64) :
    V m c main_v0 (ix3 (sliceOf b h) n d) = m ((c : Thread nD τ).loc main_arg0) (ix4 b h n d) := by
  rw [staged_q m c]; exact relay64_apply _ b h n d

theorem staged_k_apply (c : Dev nD) (b h : Fin 8) (n : Fin 1024) (d : Fin 64) :
    V m c main_v1 (ix3 (sliceOf b h) n d) = m ((c : Thread nD τ).loc main_arg1) (ix4 b h n d) := by
  rw [staged_k m c]; exact relay64_apply _ b h n d

theorem staged_v_apply (c : Dev nD) (b h : Fin 8) (n v : Fin 1024) :
    V m c main_v2 (ix3 (sliceOf b h) n v) = m ((c : Thread nD τ).loc main_arg2) (ix4 b h n v) := by
  rw [staged_v m c]; exact relay1024_apply _ b h n v

end Cert.KernelIdeal.Staged

end
-- ==== Proof.KValue.lean ====
/-
  The kernel's run, read: its result is the specification of its arguments.

  The result array [64, 1024, 1024] is re-laid to [8, 8, 1024, 1024] after the kernel: entry (b, h, n, v) is entry
  (8 b + h, n, v) of the array the grid left, the attention entry of row `n` of slice `8 b + h` over the staged
  arrays; and slice `8 b + h` of each staged array is slice (b, h) of the argument it was re-laid from. So the
  result is `Cert.Spec.G` of the three arguments.
-/
import proofs.«178016_j36060545417824_2_alg».proof.Proof.KFinal
import proofs.«178016_j36060545417824_2_alg».proof.Proof.KTail
import proofs.«178016_j36060545417824_2_alg».proof.Proof.KStaged

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Inv Cert.KernelIdeal.Final Cert.KernelIdeal.Staged

variable (m : (ℓ : Loc nD τ sig) → Buf (Elt Ideal) ℓ) (ρ : Dev nD → PrngReg)

/-- The array the grid left, re-laid to [8, 8, 1024, 1024], is the specification of the arguments. -/
theorem relaid_eq (c : Dev nD) :
    shapeCast S8x8x1024x1024 (staged m c) shapeCasts_S64x1024x1024_S8x8x1024x1024
      = Cert.Spec.G (m ((c : Thread nD τ).loc main_arg0)) (m ((c : Thread nD τ).loc main_arg1)) (m ((c : Thread nD τ).loc main_arg2)) := by
  funext i
  obtain ⟨b, h, n, v, rfl⟩ : ∃ (b h : Fin 8) (n v : Fin 1024), i = ix4 b h n v := ⟨i 0, i 1, i 2, i 3, eq_ix4 i⟩
  rw [unrelay_apply, staged_ix3, Cert.Spec.G_ix4]
  unfold tileEntry Cert.Spec.Gc
  have hq : (fun d : Fin 64 => V m c main_v0 (ix3 (sliceOf b h) n d)) = fun d => m ((c : Thread nD τ).loc main_arg0) (ix4 b h n d) :=
    funext fun d => staged_q_apply m c b h n d
  have hk : (fun (r : Fin 1024) (d : Fin 64) => V m c main_v1 (ix3 (sliceOf b h) r d)) = fun r d => m ((c : Thread nD τ).loc main_arg1) (ix4 b h r d) :=
    funext fun r => funext fun d => staged_k_apply m c b h r d
  have hv : (fun r : Fin 1024 => V m c main_v2 (ix3 (sliceOf b h) r v)) = fun r => m ((c : Thread nD τ).loc main_arg2) (ix4 b h r v) :=
    funext fun r => staged_v_apply m c b h r v
  rw [hq, hk, hv]

/-- Every weakly fair execution of the idealized kernel's program terminates with the result at the specification of
    the arguments, and the arguments unchanged. -/
theorem run : θ_run defs (onTc (τ := τ) (main (F := Ideal))) ⟨m, fun _ => 0, ρ⟩ fun r => ∀ c : Dev nD,
      r.2.mem ((c : Thread nD τ).loc main_v4)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(Cert.KernelIdeal.Tail.result_mem m r h c).trans
        ((congrArg (fun X => shapeCast S8x8x1024x1024 X shapeCasts_S64x1024x1024_S8x8x1024x1024) (final m c)).trans (relaid_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefRun.lean ====
/-
  The reference program's run, read back.

  The program is a straight line of forty-one whole-array operations: the feature map ELU + 1 applied to the
  queries and to the keys (each time fifteen operations of an outlined function — two comparisons with a
  broadcast zero, a select that makes the exponential's argument harmless, e^y - 1, a product with a
  broadcast one, a final select — followed by the addition of a broadcast one), the contraction of the two
  feature arrays over their last axis (the Gram matrix), the contraction of that matrix with the values, and
  the quotient of the two.  Every weakly fair execution terminates with the last buffer holding the
  composition of those operations on the launch contents of the three arguments, which `refTerm` names, and
  with the arguments unchanged.  Nothing here depends on the float values: the statement is for every
  instance.
-/
import proofs.«178016_j36060545417824_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The array of shape [8, 8, 1024, 64] that is `+0.0` everywhere: the scalar constant, broadcast. -/
def zeros : (⟨S8x8x1024x64, .f32⟩ : BufTy).Contents (Elt F) :=
  broadcastInDim S8x8x1024x64 ![] bcast_S_S8x8x1024x64 (constant S_ .f32 0x00000000#32)

/-- The array of shape [8, 8, 1024, 64] that is `1.0` everywhere: the scalar constant, broadcast. -/
def ones : (⟨S8x8x1024x64, .f32⟩ : BufTy).Contents (Elt F) :=
  broadcastInDim S8x8x1024x64 ![] bcast_S_S8x8x1024x64 (constant S_ .f32 0x3F800000#32)

/-- The feature map on a whole array, as the program spells it: where `x > 0` the entry itself, elsewhere
    one times `e^y - 1` with `y` the entry made harmless (zero where `x > 0`); then one is added. -/
def featR (x : (⟨S8x8x1024x64, .f32⟩ : BufTy).Contents (Elt F)) : (⟨S8x8x1024x64, .f32⟩ : BufTy).Contents (Elt F) :=
  addf (select (cmpf .ogt x zeros) x (mulf ones (Host.expm1 (select (cmpf .ogt x zeros) zeros x)))) ones

/-- The Gram matrix of the feature arrays: queries against keys, contracted over the last axis. -/
def gram (Q K : (⟨S8x8x1024x64, .f32⟩ : BufTy).Contents (Elt F)) : (⟨S8x8x1024x1024, .f32⟩ : BufTy).Contents (Elt F) :=
  Host.dotGeneral dot_S8x8x1024x64_S8x8x1024x64_S8x8x1024x1024_3_3_2_2_01_01 none (featR Q) (featR K)

/-- What the program leaves in its result buffer, as a function of its three arguments: the Gram matrix
    times the values, divided entry by entry by the Gram matrix. -/
def refTerm (Q K : (⟨S8x8x1024x64, .f32⟩ : BufTy).Contents (Elt F)) (V : (⟨S8x8x1024x1024, .f32⟩ : BufTy).Contents (Elt F)) : (⟨S8x8x1024x1024, .f32⟩ : BufTy).Contents (Elt F) :=
  Host.divf (Host.dotGeneral dot_S8x8x1024x1024_S8x8x1024x1024_S8x8x1024x1024_3_2_2_3_01_01 none (gram Q K) V) (gram Q K)

/-! ## The operations -/

/-- @main's forty-one operations, in order, the calls unfolded: the constant one; the fifteen operations of
    the feature function on the queries; a one, its broadcast, the sum; a one; the fifteen operations on the
    keys; a one, its broadcast, the sum; the two contractions; the quotient. -/
abbrev ops : List (HloOp τ sig (Elt F)) :=
  [ nullary main_cst (constant S_ .f32 0x3F800000#32),
    TRef.nullary main_call0.cst (constant S_ .f32 0x00000000#32),
    TRef.unary main_call0.cst main_call0.v0 (broadcastInDim S8x8x1024x64 ![] bcast_S_S8x8x1024x64),
    TRef.binary (.of main_arg0) main_call0.v0 main_call0.v1 (cmpf .ogt),
    TRef.nullary main_call0.cst_0 (constant S_ .f32 0x00000000#32),
    TRef.unary main_call0.cst_0 main_call0.v2 (broadcastInDim S8x8x1024x64 ![] bcast_S_S8x8x1024x64),
    TRef.binary (.of main_arg0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8x8x1024x64 ![] bcast_S_S8x8x1024x64),
    TRef.ternary main_call0.v3 main_call0.call0.v1 (.of main_arg0) main_call0.call0.v2 select,
    TRef.unary main_call0.call0.v2 main_call0.v5 Host.expm1,
    TRef.unary (.of main_cst) main_call0.v6 id,
    TRef.unary main_call0.v6 main_call0.v7 (broadcastInDim S8x8x1024x64 ![] bcast_S_S8x8x1024x64),
    TRef.binary main_call0.v7 main_call0.v5 main_call0.v8 mulf,
    TRef.ternary main_call0.v1 (.of main_arg0) main_call0.v8 main_call0.call1.v0 select,
    nullary main_cst_0 (constant S_ .f32 0x3F800000#32),
    unary main_cst_0 main_v1 (broadcastInDim S8x8x1024x64 ![] bcast_S_S8x8x1024x64 : (⟨S_, .f32⟩ : BufTy).Contents (Elt F) → (⟨S8x8x1024x64, .f32⟩ : BufTy).Contents (Elt F)),
    binary main_v0 main_v1 main_v2 (addf : (⟨S8x8x1024x64, .f32⟩ : BufTy).Contents (Elt F) → (⟨S8x8x1024x64, .f32⟩ : BufTy).Contents (Elt F) → (⟨S8x8x1024x64, .f32⟩ : BufTy).Contents (Elt F)),
    nullary main_cst_1 (constant S_ .f32 0x3F800000#32),
    TRef.nullary main_call1.cst (constant S_ .f32 0x00000000#32),
    TRef.unary main_call1.cst main_call1.v0 (broadcastInDim S8x8x1024x64 ![] bcast_S_S8x8x1024x64),
    TRef.binary (.of main_arg1) main_call1.v0 main_call1.v1 (cmpf .ogt),
    TRef.nullary main_call1.cst_0 (constant S_ .f32 0x00000000#32),
    TRef.unary main_call1.cst_0 main_call1.v2 (broadcastInDim S8x8x1024x64 ![] bcast_S_S8x8x1024x64),
    TRef.binary (.of main_arg1) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8x8x1024x64 ![] bcast_S_S8x8x1024x64),
    TRef.ternary main_call1.v3 main_call1.call0.v1 (.of main_arg1) main_call1.call0.v2 select,
    TRef.unary main_call1.call0.v2 main_call1.v5 Host.expm1,
    TRef.unary (.of main_cst_1) main_call1.v6 id,
    TRef.unary main_call1.v6 main_call1.v7 (broadcastInDim S8x8x1024x64 ![] bcast_S_S8x8x1024x64),
    TRef.binary main_call1.v7 main_call1.v5 main_call1.v8 mulf,
    TRef.ternary main_call1.v1 (.of main_arg1) main_call1.v8 main_call1.call1.v0 select,
    nullary main_cst_2 (constant S_ .f32 0x3F800000#32),
    unary main_cst_2 main_v4 (broadcastInDim S8x8x1024x64 ![] bcast_S_S8x8x1024x64 : (⟨S_, .f32⟩ : BufTy).Contents (Elt F) → (⟨S8x8x1024x64, .f32⟩ : BufTy).Contents (Elt F)),
    binary main_v3 main_v4 main_v5 (addf : (⟨S8x8x1024x64, .f32⟩ : BufTy).Contents (Elt F) → (⟨S8x8x1024x64, .f32⟩ : BufTy).Contents (Elt F) → (⟨S8x8x1024x64, .f32⟩ : BufTy).Contents (Elt F)),
    binary main_v2 main_v5 main_v6 ((fun l r => Host.dotGeneral dot_S8x8x1024x64_S8x8x1024x64_S8x8x1024x1024_3_3_2_2_01_01 none l r) : (⟨S8x8x1024x64, .f32⟩ : BufTy).Contents (Elt F) → (⟨S8x8x1024x64, .f32⟩ : BufTy).Contents (Elt F) → (⟨S8x8x1024x1024, .f32⟩ : BufTy).Contents (Elt F)),
    binary main_v6 main_arg2 main_v7 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    binary main_v7 main_v6 main_v8 (Host.divf : (⟨S8x8x1024x1024, .f32⟩ : BufTy).Contents (Elt F) → (⟨S8x8x1024x1024, .f32⟩ : BufTy).Contents (Elt F) → (⟨S8x8x1024x1024, .f32⟩ : BufTy).Contents (Elt F)) ]

-- forty-one binds re-associated: the rewrite under the chain recurses once per statement
set_option maxRecDepth 1024 in
/-- @main is that straight line: the functions' definitions unfolded at their calls, both sides are one chain
    of steps once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., unary_bufs_sub ..,
    unary_bufs_sub .., binary_bufs_sub .., ternary_bufs_sub ..,
    nullary_bufs_sub .., unary_bufs_sub .., binary_bufs_sub .., nullary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., unary_bufs_sub ..,
    unary_bufs_sub .., binary_bufs_sub .., ternary_bufs_sub ..,
    nullary_bufs_sub .., unary_bufs_sub .., binary_bufs_sub .., binary_bufs_sub .., binary_bufs_sub .., binary_bufs_sub ..⟩

/-! ## The run -/

/-- The result buffer after the forty-one operations, from any valuation of the buffers: each operation's
    result read at its own buffer is its function of its operands' contents and at any other buffer what was
    there, so the last buffer holds the composition, which is `refTerm` of the arguments. -/
theorem out_eq (W : Valuation τ sig (Elt F)) :
    after ops W (main_v8 : DevRef τ sig)
      = refTerm (W (main_arg0 : DevRef τ sig)) (W (main_arg1 : DevRef τ sig)) (W (main_arg2 : DevRef τ sig)) := by
  after_results_simp
  rfl

/-- On every device, for any float values, from any memory with zero counters: every weakly fair execution of
    @main terminates with the result buffer at `refTerm` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v8).trans (out_eq _),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.RefRun

end
-- ==== Proof.RefIdx.lean ====
/-
  The two contractions' operand indices, and the feature map at a position.

  A contraction over one axis reads, at result position j and contraction position k, the left operand at an
  index built from j's coordinates and k, and likewise the right operand.  For the Gram matrix — queries
  against keys, batch axes (b, h), contracted over the feature axis d — the result position (b, h, n, m)
  reads the query row at (b, h, n, d) and the key row at (b, h, m, d).  For the product with the values —
  contracted over the Gram matrix's last axis m against the values' axis 2 — the result position
  (b, h, n, v) reads the matrix at (b, h, n, m) and the values at (b, h, m, v).  Each is proved coordinate by
  coordinate.  The contraction index is the one-axis index of the contracted coordinate.

  The feature map on arrays, read at a position, is the scalar map of the specification: the two broadcast
  constants read 0 and 1 everywhere, and the scalar identity is the specification's second spelling of ELU + 1.
-/
import proofs.«178016_j36060545417824_2_alg».proof.Proof.Spec
import proofs.«178016_j36060545417824_2_alg».proof.Proof.RefRun
import Idealize.ShloMosaic.PureOps.Ideal.Laws

noncomputable section

open scoped BigOperators

namespace Cert.ReferenceIdeal.RefIdx

open Cert.ReferenceIdeal Cert.ReferenceIdeal.Gen Cert.ReferenceIdeal.RefRun Idealize.ShloMosaic Idealize.ShloMosaic.ValueIdx

/-- The Gram contraction: [8, 8, 1024, 64] × [8, 8, 1024, 64] → [8, 8, 1024, 1024], batch axes 0 and 1, contracted
    over axis 3 of both. -/
abbrev D1 : DotDims S8x8x1024x64 S8x8x1024x64 S8x8x1024x1024 := dot_S8x8x1024x64_S8x8x1024x64_S8x8x1024x1024_3_3_2_2_01_01
/-- The product with the values: [8, 8, 1024, 1024] × [8, 8, 1024, 1024] → [8, 8, 1024, 1024], batch axes 0 and 1,
    axis 3 of the left operand contracted against axis 2 of the right. -/
abbrev D2 : DotDims S8x8x1024x1024 S8x8x1024x1024 S8x8x1024x1024 := dot_S8x8x1024x1024_S8x8x1024x1024_S8x8x1024x1024_3_2_2_3_01_01

/-- The contraction positions of the Gram matrix are the 64 feature coordinates. -/
def e1 : D1.contr.Idx ≃ Fin 64 := contrEquiv1 D1 64 rfl rfl
/-- The contraction positions of the second product are the 1024 key rows. -/
def e2 : D2.contr.Idx ≃ Fin 1024 := contrEquiv1 D2 1024 rfl rfl

theorem e1_symm_val (d : Fin 64) : ((e1.symm d) ⟨0, by decide⟩ : ℕ) = d.val := contrEquiv1_symm_val D1 64 rfl rfl d
theorem e2_symm_val (m : Fin 1024) : ((e2.symm m) ⟨0, by decide⟩ : ℕ) = m.val := contrEquiv1_symm_val D2 1024 rfl rfl m

/-! ## The Gram matrix's operand indices -/

/-- The query operand at result position (b, h, n, m) and feature d is read at (b, h, n, d). -/
theorem lhs1 (b h : Fin 8) (n m : Fin 1024) (d : Fin 64) :
    D1.lhsIdx (ix4 b h n m) (e1.symm d) = ix4 b h n d := by
  funext a
  apply Fin.ext
  match a with
  | ⟨0, _⟩ => simp [DotDims.lhsIdx, D1, dot_S8x8x1024x64_S8x8x1024x64_S8x8x1024x1024_3_3_2_2_01_01]; rfl
  | ⟨1, _⟩ => simp [DotDims.lhsIdx, D1, dot_S8x8x1024x64_S8x8x1024x64_S8x8x1024x1024_3_3_2_2_01_01]; rfl
  | ⟨2, _⟩ => simp [DotDims.lhsIdx, D1, dot_S8x8x1024x64_S8x8x1024x64_S8x8x1024x1024_3_3_2_2_01_01]; rfl
  | ⟨3, _⟩ => exact (D1.lhsIdx_val_of_single (cl := ⟨3, by decide⟩) rfl _ _).trans (e1_symm_val d)

/-- The key operand at result position (b, h, n, m) and feature d is read at (b, h, m, d). -/
theorem rhs1 (b h : Fin 8) (n m : Fin 1024) (d : Fin 64) :
    D1.rhsIdx (ix4 b h n m) (e1.symm d) = ix4 b h m d := by
  funext a
  apply Fin.ext
  match a with
  | ⟨0, _⟩ => simp [DotDims.rhsIdx, D1, dot_S8x8x1024x64_S8x8x1024x64_S8x8x1024x1024_3_3_2_2_01_01]; rfl
  | ⟨1, _⟩ => simp [DotDims.rhsIdx, D1, dot_S8x8x1024x64_S8x8x1024x64_S8x8x1024x1024_3_3_2_2_01_01]; rfl
  | ⟨2, _⟩ => simp [DotDims.rhsIdx, D1, dot_S8x8x1024x64_S8x8x1024x64_S8x8x1024x1024_3_3_2_2_01_01]; rfl
  | ⟨3, _⟩ => exact (D1.rhsIdx_val_of_single (cr := ⟨3, by decide⟩) rfl _ _).trans (e1_symm_val d)

/-! ## The second product's operand indices -/

/-- The Gram operand at result position (b, h, n, v) and key row m is read at (b, h, n, m). -/
theorem lhs2 (b h : Fin 8) (n v m : Fin 1024) :
    D2.lhsIdx (ix4 b h n v) (e2.symm m) = ix4 b h n m := by
  funext a
  apply Fin.ext
  match a with
  | ⟨0, _⟩ => simp [DotDims.lhsIdx, D2, dot_S8x8x1024x1024_S8x8x1024x1024_S8x8x1024x1024_3_2_2_3_01_01]; rfl
  | ⟨1, _⟩ => simp [DotDims.lhsIdx, D2, dot_S8x8x1024x1024_S8x8x1024x1024_S8x8x1024x1024_3_2_2_3_01_01]; rfl
  | ⟨2, _⟩ => simp [DotDims.lhsIdx, D2, dot_S8x8x1024x1024_S8x8x1024x1024_S8x8x1024x1024_3_2_2_3_01_01]; rfl
  | ⟨3, _⟩ => exact (D2.lhsIdx_val_of_single (cl := ⟨3, by decide⟩) rfl _ _).trans (e2_symm_val m)

/-- The values operand at result position (b, h, n, v) and key row m is read at (b, h, m, v). -/
theorem rhs2 (b h : Fin 8) (n v m : Fin 1024) :
    D2.rhsIdx (ix4 b h n v) (e2.symm m) = ix4 b h m v := by
  funext a
  apply Fin.ext
  match a with
  | ⟨0, _⟩ => simp [DotDims.rhsIdx, D2, dot_S8x8x1024x1024_S8x8x1024x1024_S8x8x1024x1024_3_2_2_3_01_01]; rfl
  | ⟨1, _⟩ => simp [DotDims.rhsIdx, D2, dot_S8x8x1024x1024_S8x8x1024x1024_S8x8x1024x1024_3_2_2_3_01_01]; rfl
  | ⟨2, _⟩ => exact (D2.rhsIdx_val_of_single (cr := ⟨2, by decide⟩) rfl _ _).trans (e2_symm_val m)
  | ⟨3, _⟩ => simp [DotDims.rhsIdx, D2, dot_S8x8x1024x1024_S8x8x1024x1024_S8x8x1024x1024_3_2_2_3_01_01]; rfl

/-! ## The feature map at a position -/

/-- The broadcast zero reads 0 everywhere. -/
theorem zeros_apply (i : S8x8x1024x64.Idx) : zeros (F := Ideal) i = 0 := Cert.Spec.zero_f32

/-- The broadcast one reads 1 everywhere. -/
theorem ones_apply (i : S8x8x1024x64.Idx) : ones (F := Ideal) i = 1 := Cert.Spec.one_f32

/-- The feature map on an array, read at a position, is the scalar map of that entry: the comparison, the
    selects, e^y - 1, the product with one and the sum with one all act entry by entry, and what they
    compute of one entry is the specification's ELU spelling. -/
theorem featR_apply (x : S8x8x1024x64.Idx → EReal) (i : S8x8x1024x64.Idx) :
    featR (F := Ideal) x i = Cert.Spec.phi (x i) := by
  show Scalar.select (Ideal.cmp .ogt (x i) (zeros (F := Ideal) i)) (x i)
        (ones (F := Ideal) i * (Ideal.exp (Scalar.select (Ideal.cmp .ogt (x i) (zeros (F := Ideal) i)) (zeros (F := Ideal) i) (x i)) - 1))
      + ones (F := Ideal) i = _
  rw [zeros_apply, ones_apply]
  exact Cert.Spec.phi_elu (x i)

end Cert.ReferenceIdeal.RefIdx

end
-- ==== Proof.RefValue.lean ====
/-
  At the extended reals the reference computes the specification, entry by entry.

  The result array is the quotient, entry by entry, of the Gram matrix times the values by the Gram matrix.
  At position (b, h, n, m) the Gram matrix is the sum over the 64 feature coordinates d of
  phi Q[b,h,n,d] * phi K[b,h,m,d]: the contraction is a sum over its one contracted axis, re-indexed by that
  axis's coordinate, with the operands read at the positions the contraction's index maps give, and the
  feature arrays read at a position are phi of the entry.  At position (b, h, n, v) the second product is
  the sum over the 1024 key rows m of the Gram entry (b, h, n, m) times V[b,h,m,v], by the same reading.  The
  quotient of that sum by the Gram entry at (b, h, n, v) is the specification's entry.
-/
import proofs.«178016_j36060545417824_2_alg».proof.Proof.RefIdx

noncomputable section

open scoped BigOperators

namespace Cert.ReferenceIdeal.RefValue

open Cert.ReferenceIdeal Cert.ReferenceIdeal.Gen Cert.ReferenceIdeal.RefRun Cert.ReferenceIdeal.RefIdx
open Idealize.ShloMosaic Idealize.ShloMosaic.ValueIdx Idealize.ShloMosaic.TcCoe Idealize.SL.Sem

/-- The Gram matrix at (b, h, n, m): the sum over the feature coordinate of the products of the feature maps
    of the query row n and the key row m. -/
theorem gram_apply (Q K : Cert.Spec.SQK.Idx → EReal) (b h : Fin 8) (n m : Fin 1024) :
    gram (F := Ideal) Q K (ix4 b h n m)
      = Cert.Spec.den (fun d => Q (ix4 b h n d)) (fun d => K (ix4 b h m d)) := by
  unfold gram Cert.Spec.den
  simp only [Host.dotGeneral]
  rw [Ideal.dotGeneral_apply, ← Equiv.sum_comp e1.symm]
  refine Finset.sum_congr rfl fun d _ => ?_
  rw [lhs1, rhs1, featR_apply, featR_apply]

/-- The reference's composed term is the specification's result array. -/
theorem refTerm_eq (Q K : Cert.Spec.SQK.Idx → EReal) (V : Cert.Spec.SV.Idx → EReal) :
    refTerm (F := Ideal) Q K V = Cert.Spec.G Q K V := by
  funext i
  obtain ⟨b, h, n, v, rfl⟩ : ∃ (b h : Fin 8) (n v : Fin 1024), i = ix4 b h n v := ⟨i 0, i 1, i 2, i 3, eq_ix4 i⟩
  rw [Cert.Spec.G_ix4]
  unfold Cert.Spec.Gc Cert.Spec.entry
  show Ideal.div (Host.dotGeneral (F := Ideal) D2 none (gram (F := Ideal) Q K) V (ix4 b h n v)) (gram (F := Ideal) Q K (ix4 b h n v)) = _
  simp only [Host.dotGeneral]
  rw [Ideal.dotGeneral_apply, ← Equiv.sum_comp e2.symm, gram_apply]
  congr 1
  refine Finset.sum_congr rfl fun m _ => ?_
  rw [lhs2, rhs2, gram_apply]

/-- On every device, from any memory with zero counters: every weakly fair execution of the reference at the
    extended reals terminates with its result buffer at the specification's array of the arguments' launch
    contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (refTerm_eq _ _ _), (h c).2⟩) (RefRun.run m ρ)

end Cert.ReferenceIdeal.RefValue

end
-- ==== Proof.lean ====
/-
  The kernel — linear attention with the feature map ELU + 1, computed tile by tile on a 64 × 2 grid with the key
  features and the values of a (batch, head) slice kept in scratch across the slice's two row tiles — against its
  reference, two einsums and a quotient over the whole arrays.

  Over the extended reals both programs compute one function of (Q, K, V), `Cert.Spec.G`:
      out[b,h,n,v] = ( sum_m den[b,h,n,m] * V[b,h,m,v] ) / den[b,h,n,v],   den[b,h,n,m] = sum_d phi Q[b,h,n,d] * phi K[b,h,m,d].
  The kernel's side: what one run of the body leaves (KPieces), point by point (KState), read as numbers with the
  blocks placed in their arrays (Payload, KBlocks, KInv), the tiles assembled into the result array (KCover, KFinal),
  re-laid to the result's shape over arguments re-laid on the way in (KStaged, KTail, KValue). The reference's side:
  its run as a list of operations (RefRun), its two contractions and its feature map read at an index (RefIdx,
  RefValue). The two spellings of the feature map agree at every extended real, so the precondition is not used
  for the values. The three frames are the generated frame of each kernel program and the reference's run with its
  result dropped; the idealization rewrote nothing, so there is nothing to preserve.
-/
import proofs.«178016_j36060545417824_2_alg».proof.Defs
import proofs.«178016_j36060545417824_2_alg».proof.Proof.Gen.Kernel
import proofs.«178016_j36060545417824_2_alg».proof.Proof.Gen.Kernel.Skeleton
import proofs.«178016_j36060545417824_2_alg».proof.Proof.Gen.Kernel.Launch
import proofs.«178016_j36060545417824_2_alg».proof.Proof.Gen.Kernel.Points
import proofs.«178016_j36060545417824_2_alg».proof.Proof.Gen.Kernel.Frame
import proofs.«178016_j36060545417824_2_alg».proof.Proof.Gen.KernelIdeal
import proofs.«178016_j36060545417824_2_alg».proof.Proof.Gen.KernelIdeal.Skeleton
import proofs.«178016_j36060545417824_2_alg».proof.Proof.Gen.KernelIdeal.Launch
import proofs.«178016_j36060545417824_2_alg».proof.Proof.Gen.KernelIdeal.Points
import proofs.«178016_j36060545417824_2_alg».proof.Proof.Gen.KernelIdeal.Frame
import proofs.«178016_j36060545417824_2_alg».proof.Proof.Gen.ReferenceIdeal
import proofs.«178016_j36060545417824_2_alg».proof.Proof.Gen.Pre_finite_inputs
import proofs.«178016_j36060545417824_2_alg».proof.Proof.KValue
import proofs.«178016_j36060545417824_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run m ρ)

/-- From memories that agree on the arguments both idealized programs end with the specification of those arguments
    as their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
